-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x128 : Shape := ⟨2, ![512, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S16384x512 .f32) (main_arg1 : FVec F S512x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S16384x512 : Shape := ⟨2, ![16384, 512]⟩
abbrev S512x128 : Shape := ⟨2, ![512, 128]⟩
abbrev S16384x128 : Shape := ⟨2, ![16384, 128]⟩
abbrev S1024x512 : Shape := ⟨2, ![1024, 512]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S16384x128, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S1024x128, .f32⟩
  | .local _ .vmem, ⟨4, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x128 : Shape := ⟨2, ![512, 128]⟩
abbrev S512 : Shape := ⟨1, ![512]⟩
abbrev S_ : Shape := ⟨0, ![]⟩
abbrev S512x1 : Shape := ⟨2, ![512, 1]⟩
abbrev S1 : Shape := ⟨1, ![1]⟩
abbrev S1x1 : Shape := ⟨2, ![1, 1]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S16384x512, .f32⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S1x1, .i32⟩
  | .hbm, ⟨17, _⟩ => ⟨S512x1, .i32⟩
  | .hbm, ⟨18, _⟩ => ⟨S512x1, .i1⟩
  | .hbm, ⟨19, _⟩ => ⟨S512x1, .i1⟩
  | .hbm, ⟨20, _⟩ => ⟨S_, .i1⟩
  | .hbm, ⟨21, _⟩ => ⟨S512, .i1⟩
  | .hbm, ⟨22, _⟩ => ⟨S512x128, .f32⟩
  | .hbm, ⟨23, _⟩ => ⟨S512x128, .i1⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x128_0 : S512.BroadcastsInDim S512x128 (![0] : Fin 1 → Fin S512x128.rank)
  bcast_S_S512x128 : S_.BroadcastsInDim S512x128 (![] : Fin 0 → Fin S512x128.rank)
  gather_S512x128_S512x1_S512x128_1_0_n_n_0_1_1128_wf : GatherDims.WF S512x128 S512x1 S512x128 [1] [0] [] [0] [] 1 ![1, 128]
  dot_S16384x512_S512x128_S16384x128_1_0_0_1_n_n_wf : DotDims.WF S16384x512 S512x128 S16384x128 [1] [0] [0] [1] [] []

variable [Facts₀]

def gather_S512x128_S512x1_S512x128_1_0_n_n_0_1_1128 : GatherDims S512x128 S512x1 S512x128 where
  offsetDims := [1]
  collapsedSliceDims := [0]
  operandBatchingDims := []
  startIndicesBatchingDims := []
  startIndexMap := [0]
  indexVectorDim := 1
  sliceSizes := ![1, 128]
  wf := gather_S512x128_S512x1_S512x128_1_0_n_n_0_1_1128_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf

class Facts : Prop extends Facts₀ where

variable [Facts]
-- ==== Proof.Spec.lean ====
/-
  The specification both programs meet: the table-weighted sum of the logarithms.

  For a matrix `x : [16384, 512]` and a table `emb : [512, 128]` over the extended reals, entry `(r, c)` of the result
  is `∑ₖ log(1 + x[r, k]) · emb[k, c]` over the 512 columns of `x` (the rows of the table): the matrix product of the
  entrywise `log1p x` with `emb`. It is stated as a sum over `Fin 512`, a finite sum in a commutative monoid, so
  neither the order of the terms nor a grouping of them is part of it.
-/
import Idealize.ShloMosaic.PureOps.Ideal
import Idealize.ShloMosaic.Lib.ValueIdx

noncomputable section

namespace Cert.Spec

open Idealize.ShloMosaic Idealize.ShloMosaic.ValueIdx

/-- Entry `(r, c)` of `log1p x · emb`. -/
def entry (x : (⟨2, ![16384, 512]⟩ : Shape).Idx → EReal) (emb : (⟨2, ![512, 128]⟩ : Shape).Idx → EReal)
    (r : Fin 16384) (c : Fin 128) : EReal :=
  ∑ k : Fin 512, Ideal.log1p (x (ix2 r k)) * emb (ix2 k c)

/-- `log1p x · emb` as an array `[16384, 128]`. -/
def product (x : (⟨2, ![16384, 512]⟩ : Shape).Idx → EReal) (emb : (⟨2, ![512, 128]⟩ : Shape).Idx → EReal) :
    (⟨2, ![16384, 128]⟩ : Shape).Idx → EReal :=
  fun i => entry x emb (i 0) (i 1)

theorem product_apply (x : (⟨2, ![16384, 512]⟩ : Shape).Idx → EReal) (emb : (⟨2, ![512, 128]⟩ : Shape).Idx → EReal)
    (r : Fin 16384) (c : Fin 128) : product x emb (ix2 r c) = entry x emb r c := rfl

end Cert.Spec

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.KernelValue.lean ====
/-
  The kernel's result array is `log1p x · emb`.

  The kernel runs over 16 grid points. At point `t` it stages rows `1024·t … 1024·t + 1023` of `x` (all 512 columns)
  and the whole table, takes the entrywise `log1p` of the staged rows, multiplies by the table on the matrix unit into a
  zero accumulator, and writes the `1024 × 128` product back as rows `1024·t … 1024·t + 1023` of the result. At the
  extended reals the matrix unit's product into zero is the plain sum over the contraction index, so entry `(p, q)` of
  the block written at point `t` is `∑ₖ log1p(x[1024·t + p, k]) · emb[k, q]` — entry `(1024·t + p, q)` of the
  specification. The sixteen blocks tile the result's rows (row `r` lies in the block of point `r / 1024`), so the whole
  array ends at the specification.
-/
import proofs.«124943_g71811853189968_cont_9to1_m_838_2_alg».proof.Proof.Gen.KernelIdeal.Value
import proofs.«124943_g71811853189968_cont_9to1_m_838_2_alg».proof.Proof.Spec
import proofs.«124943_g71811853189968_cont_9to1_m_838_2_alg».proof.Proof.LibPlainDot
import Idealize.ShloMosaic.PureOps.Ideal.Laws
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an index -/

/-- Entry `(p, q)` of the body's stored value, for any staged rows `x0` and staged table `x1`: the matrix unit's
    product of `log1p x0` with `x1` into the zero accumulator is the sum over the 512 contraction positions. -/
theorem pay_apply (x0 : FVec Ideal S1024x512 .f32) (x1 : FVec Ideal S512x128 .f32) (p : Fin 1024) (q : Fin 128) :
    k0_pay1 (F := Ideal) x0 x1 (ix2 p q) = ∑ k : Fin 512, Ideal.log1p (x0 (ix2 p k)) * x1 (ix2 k q) := by
  unfold k0_pay1
  refine (Ideal.matmul_constant_zero_apply dot_S1024x512_S512x128_S1024x128_1_0_0_1_n_n none
    (log1p (F := Ideal) x0) x1 (ix2 p q)).trans ?_
  exact PlainDot.plain_sum (β := EReal) (M := 1024) (K := 512) (N := 128) dot_S1024x512_S512x128_S1024x128_1_0_0_1_n_n
    rfl rfl rfl rfl rfl rfl rfl rfl (fun a b => log1p (F := Ideal) x0 a * x1 b) p q

/-! ## From the blocks to the array -/

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: at point `t` the rows of `x` and of the result are block `t` along the first
    axis, every other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the specification of the two argument arrays. -/
theorem flushed_eq (c : Dev nD) (t : Fin cfg0.N) :
    (dats m 0 c).flushed 2 t
      = ((cfg0.win 2).blk t).view.read (Elt Ideal) (Spec.product (V m c main_arg0) (V m c main_arg1)) := by
  rw [Value.flushed2]
  unfold out0_2
  rw [View.canon_unit_zero origin]
  simp only [View.ld_unit_zero (S := S1024x512) origin, View.ld_unit_zero (S := S512x128) origin]
  obtain ⟨e0, e1, e2, e3, e4, e5⟩ := block_indices t
  funext j
  obtain ⟨p, q, rfl⟩ : ∃ (p : Fin 1024) (q : Fin 128), j = ix2 p q := ⟨j 0, j 1, eq_ix2 j⟩
  show k0_pay1 (iblk m c 0 t) (iblk m c 1 t) (ix2 p q)
    = Spec.entry (V m c main_arg0) (V m c main_arg1) (((cfg0.win 2).blk t).view.emb (ix2 p q) 0)
        (((cfg0.win 2).blk t).view.emb (ix2 p q) 1)
  refine (pay_apply (iblk m c 0 t) (iblk m c 1 t) p q).trans ?_
  unfold Spec.entry
  refine Finset.sum_congr rfl fun k _ => ?_
  have hx : iblk m c 0 t (ix2 p k) = V m c main_arg0 (ix2 (((cfg0.win 2).blk t).view.emb (ix2 p q) 0) k) := by
    show V m c main_arg0 (((cfg0.win 0).blk t).view.emb (ix2 p k)) = _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 512 + 1 * k.val = k.val
      omega
  have he : iblk m c 1 t (ix2 k q) = V m c main_arg1 (ix2 k (((cfg0.win 2).blk t).view.emb (ix2 p q) 1)) := by
    show V m c main_arg1 (((cfg0.win 1).blk t).view.emb (ix2 k q)) = _
    refine congrArg (V m c main_arg1) (funext fun a => Fin.ext ?_)
    match a with
    | ⟨0, _⟩ =>
      show win0_1.index t (0 : Fin 2) * 512 + 1 * k.val = k.val
      omega
    | ⟨1, _⟩ =>
      show win0_1.index t (1 : Fin 2) * 128 + 1 * q.val = win0_2.index t (1 : Fin 2) * 128 + 1 * q.val
      omega
  rw [hx, he]

/-- An index of the result is in point `t`'s block iff each coordinate is in the block's range on its axis. -/
theorem mem_block (t : Fin cfg0.N) (i : S16384x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Every index of the result lies in the block of the point `row / 1024`. -/
theorem covered (i : S16384x128.Idx) :
    ∃ t : Fin cfg0.N, (cfg0.win 2).flush t = true ∧ i ∈ ((cfg0.win 2).blk t).view.set := by
  have hN : grid0.N = 16 := N_0
  have hi0 : (i 0).val < 16384 := (i 0).isLt
  have hi1 : (i 1).val < 128 := (i 1).isLt
  have ht : (i 0).val / 1024 < grid0.N := by omega
  obtain ⟨-, -, -, -, e4, e5⟩ := block_indices ⟨(i 0).val / 1024, ht⟩
  refine ⟨⟨(i 0).val / 1024, ht⟩, flush0_2 _, ?_⟩
  rw [mem_block]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, ht⟩ (1 : Fin 2) * 128 ≤ (i 1).val
      ∧ (i 1).val < win0_2.index ⟨(i 0).val / 1024, ht⟩ (1 : Fin 2) * 128 + 128
    rw [e5]
    omega

/-- THE RESULT ARRAY after the run is the specification of the two argument arrays. -/
theorem final (c : Dev nD) :
    (dats m 0 c).arrAt 2 cfg0.N
      = Spec.product (m ((c : Thread nD τ).loc main_arg0)) (m ((c : Thread nD τ).loc main_arg1)) :=
  (dats m 0 c).arrAt_eq_of_cover 2 _ (fun t _ => flushed_eq m c t) covered

/-- The kernel's run: every weakly fair execution terminates with the result array at the specification of the
    arguments, the arguments unchanged. -/
theorem run : θ_run defs (onTc (τ := τ) (main (F := Ideal))) ⟨m, fun _ => 0, ρ⟩ fun r => ∀ c : Dev nD,
      r.2.mem ((c : Thread nD τ).loc main_v0)
          = Spec.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BlockValue

end
-- ==== Proof.RefRun.lean ====
/-
  The reference program as a straight line of host operations, and its run.

  The reference computes `log1p x`, builds the index vector `0, 1, …, 511`, passes the table `emb` and that
  vector to a row-lookup function, and multiplies: `log1p x · lookup(emb, 0..511)`. The row-lookup function is a
  module-local function which itself calls a second one (a three-way select); both calls execute the callee's body on
  the caller's buffers, so @main IS one sequence of twenty-six operations: the logarithm, the iota, the twenty-three
  operations of the lookup (the negative-index wrap-around `idx < 0 ? idx + 512 : idx` through the inner select, the
  index column, the in-bounds mask `0 ≤ idx ≤ 511` reduced over the column's unit axis, the gather, the fill value
  and the masked select), and the matrix product. Every weakly fair execution of such a sequence terminates with each
  buffer at the fold of the operations over the launch contents; here that fold is read at the result buffer and at
  the two argument buffers.
-/
import proofs.«124943_g71811853189968_cont_9to1_m_838_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-six operations in order, the two calls unfolded: the lookup's operations write the buffers of the
    call's record `main_call0`, the inner select the buffer of `main_call0.call0`. -/
abbrev ops : List (HloOp τ sig (Elt F)) :=
  [ unary main_arg0 main_v0 (Host.log1p : (⟨S16384x512, .f32⟩ : BufTy).Contents (Elt F) → (⟨S16384x512, .f32⟩ : BufTy).Contents (Elt F)),
    nullary main_v1 (iotaInDim S512 32 0),
    TRef.nullary main_call0.c (constantI S_ 32 0#32),
    TRef.unary main_call0.c main_call0.v0 (broadcastInDim S512 ![] bcast_S_S512),
    TRef.binary (.of main_v1) main_call0.v0 main_call0.v1 (cmpi .slt),
    TRef.nullary main_call0.c_0 (constantI S_ 32 512#32),
    TRef.unary main_call0.c_0 main_call0.v2 (broadcastInDim S512 ![] bcast_S_S512),
    TRef.binary (.of main_v1) main_call0.v2 main_call0.v3 addi,
    TRef.ternary main_call0.v1 main_call0.v3 (.of main_v1) main_call0.call0.v0 select,
    TRef.unary main_call0.call0.v0 main_call0.v5 (broadcastInDim S512x1 ![0] bcast_S512_S512x1_0),
    TRef.nullary main_call0.c_1 (constantI S1 32 511#32),
    TRef.nullary main_call0.c_2 (constantI S_ 32 0#32),
    TRef.unary main_call0.c_2 main_call0.v6 (broadcastInDim S512x1 ![] bcast_S_S512x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S512x1 ![0, 1] bcast_S1x1_S512x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S512x1_S512_d1 h_S_),
    TRef.binary (.of main_arg1) main_call0.v5 main_call0.v13 (fun x i => Host.gather gather_S512x128_S512x1_S512x128_1_0_n_n_0_1_1128 x i),
    TRef.unary main_call0.v12 main_call0.v14 (broadcastInDim S512x128 ![0] bcast_S512_S512x128_0),
    TRef.nullary main_call0.cst (constant S_ .f32 0x7FC00000#32),
    TRef.unary main_call0.cst main_call0.v15 (broadcastInDim S512x128 ![] bcast_S_S512x128),
    TRef.ternary main_call0.v14 main_call0.v13 main_call0.v15 main_call0.v16 select,
    binary main_v0 main_v2 main_v3 ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)) ]

set_option maxRecDepth 1024 in
/-- @main is that sequence: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub ..⟩

/-! ## The lookup and the result as functions -/

/-- The lookup's index wrap-around: a negative index has 512 added (`idx < 0 ? idx + 512 : idx`). -/
def wrapIdx (idx : IVec S512 32) : IVec S512 32 :=
  select (cmpi .slt idx (broadcastInDim S512 ![] bcast_S_S512 (constantI S_ 32 0#32)))
    (addi idx (broadcastInDim S512 ![] bcast_S_S512 (constantI S_ 32 512#32))) idx

/-- The wrapped index as a column `[512, 1]`: the gather's start indices. -/
def idxCol (idx : IVec S512 32) : IVec S512x1 32 :=
  broadcastInDim S512x1 ![0] bcast_S512_S512x1_0 (wrapIdx idx)

/-- The lookup's in-bounds test per row: `0 ≤ idx ≤ 511` on the index column, reduced by `and` (from `true`) over the
    column's unit axis. -/
def inBounds (idx : IVec S512 32) : IVec S512 1 :=
  Host.reduce IntOp.andi
    (andi (cmpi .sge (idxCol idx) (broadcastInDim S512x1 ![] bcast_S_S512x1 (constantI S_ 32 0#32)))
      (cmpi .sle (idxCol idx)
        (broadcastInDim S512x1 ![0, 1] bcast_S1x1_S512x1_0_1 (broadcastInDim S1x1 ![1] bcast_S1_S1x1_1 (constantI S1 32 511#32)))))
    (constantI S_ 1 1#1) reducesTo_S512x1_S512_d1 h_S_

/-- The row lookup as ONE function of the table and the index vector (the lookup function's twenty-three operations
    composed): the table's rows gathered at the wrapped index, a row whose index is out of bounds replaced by the fill
    value. -/
def lookupRows (emb : FVec F S512x128 .f32) (idx : IVec S512 32) : FVec F S512x128 .f32 :=
  select (broadcastInDim S512x128 ![0] bcast_S512_S512x128_0 (inBounds idx))
    (Host.gather gather_S512x128_S512x1_S512x128_1_0_n_n_0_1_1128 emb (idxCol idx))
    (broadcastInDim S512x128 ![] bcast_S_S512x128 (constant S_ .f32 0x7FC00000#32))

/-- The reference's result as one function of its two arguments: the matrix product of `log1p x` with the table's rows
    looked up at `0, 1, …, 511`. -/
def result (x : FVec F S16384x512 .f32) (emb : FVec F S512x128 .f32) : FVec F S16384x128 .f32 :=
  Host.dotGeneral dot_S16384x512_S512x128_S16384x128_1_0_0_1_n_n none (Host.log1p x) (lookupRows emb (iotaInDim S512 32 0))

attribute [local irreducible] Host.reduce Host.gather in
set_option maxRecDepth 8192 in
set_option maxHeartbeats 2000000 in
/-- The fold of the twenty-six operations, read at the result buffer, is `result` of the two argument buffers' contents:
    each operation's result is read where it is written and passed on where it is not; the reduction and the gather
    are never opened. -/
theorem out_eq (V : Valuation τ sig (Elt F)) :
    after ops V (main_v3 : DevRef τ sig) = result (V (main_arg0 : DevRef τ sig)) (V (main_arg1 : DevRef τ sig)) := by
  after_results_simp
  rfl

/-- On every device, for any float values, from any memory with zero counters: every weakly fair execution of @main
    terminates with the result buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (out_eq _),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.LibRowGather.lean ====
/-
  A row gather read at an index.

  What `x[idx]` of a matrix `x : [N, C]` at an index column `idx : [R, 1]` lowers to: `stablehlo.gather` with
  offset_dims `[1]`, collapsed_slice_dims `[0]`, start_index_map `[0]`, index_vector_dim 1, slice_sizes `[1, C]` and no
  batching axes; the result has shape `[R, C]`. Result element `(r, c)` is `x` at the row "`idx[r, 0]` read as a signed
  integer and clamped into `[0, N − 1]`" and the column `c`: on operand axis 0 (in the start index map, collapsed) the
  operand index is the clamped start alone, on operand axis 1 (not in the start index map, so its start is 0; the one
  offset axis) it is the result's second coordinate.
-/
import Idealize.ShloMosaic.PureOps.ShapeOps
import Idealize.ShloMosaic.Lib.ValueIdx

namespace Idealize.ShloMosaic.RowGather

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`, for the record `rowDims`: the operand at row `idx[r, 0]`, read signed and clamped
    into `[0, N − 1]`, and column `c`. -/
theorem rowDims_gather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    have hst : (rowDims N C R wf).start (ix2 r c) idx 1 = 0 := by
      unfold GatherDims.start
      rw [dif_neg (show ¬ (1 : Fin 2) ∈ (rowDims N C R wf).startIndexMap from
        (by decide : (1 : Fin 2) ∉ ([0] : List (Fin 2))))]
    have hk : (1 : Fin 2) ∈ (rowDims N C R wf).sKept :=
      (GatherDims.mem_sKept _ _).mpr ⟨(by decide : (1 : Fin 2) ∉ ([0] : List (Fin 2))), List.not_mem_nil⟩
    rw [hst, GatherDims.batchCoord_eq_zero _ _ _ List.not_mem_nil]
    simp only [Nat.zero_add]
    unfold GatherDims.offCoord
    rw [dif_pos hk]
    rfl

/-- THE ROW GATHER READ AT `(r, c)`, for any record with the row gather's dimension numbers: the operand at row
    `idx[r, 0]`, read signed and clamped into `[0, N − 1]`, and column `c`. -/
theorem rowGather_apply {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  obtain ⟨od, cd, ob, sb, sm, iv, ss, wf⟩ := d
  simp only at h1 h2 h3 h4 h5 h6 h7
  subst h1 h2 h3 h4 h5 h6 h7
  exact rowDims_gather_apply hN wf x idx r c

end Idealize.ShloMosaic.RowGather
-- ==== Proof.LibAndReduce.lean ====
/-
  A host `and`-reduction of all-ones is one.

  `stablehlo.reduce` with an `and` body over one-bit words folds `and` from the initial value over the operand's words
  that reduce to a result index. If the initial value is `1` and every word of the operand is `1`, each step of the fold
  is `1 ∧ 1 = 1`, so the result is `1` at every index, whatever the axes reduced.
-/
import Idealize.ShloMosaic.PureOps.Contract

namespace Idealize.ShloMosaic.AndReduce

open Idealize.ShloMosaic

/-- A left fold of `and` from `1` over words that are all `1` is `1`. -/
theorem foldl_andi_one {ι : Type} (f : ι → BitVec 1) (l : List ι) (hf : ∀ n, f n = 1#1) :
    l.foldl (fun r n => IntOp.andi r (f n)) 1#1 = 1#1 := by
  induction l with
  | nil => rfl
  | cons a l ih =>
    have h11 : IntOp.andi (1#1 : BitVec 1) 1#1 = 1#1 := by decide
    rw [List.foldl_cons, hf, h11]
    exact ih

/-- THE `and`-REDUCTION OF ALL-ONES FROM `true` is `1` at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ z, init z = 1#1) (j : t.Idx) :
    Host.reduce IntOp.andi x init h hu j = 1#1 := by
  unfold Host.reduce
  rw [hi]
  exact foldl_andi_one (fun n => x (s.rowMajor.symm n)) _ (fun n => hx _)

end Idealize.ShloMosaic.AndReduce
-- ==== Proof.RefLookup.lean ====
/-
  Looking up rows `0, 1, …, 511` of a 512-row table returns the table.

  The reference passes the index vector `iota = (0, 1, …, 511)` to its row lookup. For such an index nothing in the lookup
  changes anything: the word `k` (for `k < 512`) reads as the nonnegative integer `k`, so the negative-index wrap-around
  keeps it; the bounds test `0 ≤ k ≤ 511` holds in every row, so its `and`-reduction is `1` and the masked select keeps
  the gathered row, never the fill value; and the gather reads the table at row `min k 511 = k`. Hence row `r`, column
  `c` of the lookup is `emb[r, c]`.
-/
import proofs.«124943_g71811853189968_cont_9to1_m_838_2_alg».proof.Proof.RefRun
import proofs.«124943_g71811853189968_cont_9to1_m_838_2_alg».proof.Proof.LibRowGather
import proofs.«124943_g71811853189968_cont_9to1_m_838_2_alg».proof.Proof.LibAndReduce
import Idealize.ShloMosaic.Lib.Affine
import Idealize.ShloMosaic.Lib.ValueIdx

noncomputable section

namespace Cert.ReferenceIdeal.RefLookup

open Cert.ReferenceIdeal Cert.ReferenceIdeal.Gen Cert.ReferenceIdeal.RefRun Idealize.ShloMosaic Idealize.ShloMosaic.ValueIdx

variable {F : FTy → Type} [FloatOps F]

/-! ## Small index words -/

/-- A natural number below `2³¹`, as a 32-bit word, reads back signed as itself. -/
theorem toInt_small {n : Nat} (h : n < 2 ^ 31) : (BitVec.ofNat 32 n).toInt = (n : Int) := by
  rw [BitVec.toInt_ofNat']
  exact Int.bmod_eq_of_le (by omega) (by omega)

/-! ## The lookup's pieces at the index vector `0, 1, …, 511` -/

/-- The wrap-around keeps the index `k`: it is not negative. -/
theorem wrapIdx_iota (k : Fin 512) : wrapIdx (iotaInDim S512 32 0) (ix1 k) = BitVec.ofNat 32 k.val := by
  have hk : k.val < 512 := k.isLt
  have hc : ¬ IntOp.cmpi .slt (BitVec.ofNat 32 k.val) 0#32 = 1#1 := by
    rw [IntOp.cmpi_slt, toInt_small (n := k.val) (by omega), toInt_small (n := 0) (by norm_num)]
    omega
  show Scalar.select (IntOp.cmpi .slt (BitVec.ofNat 32 k.val) 0#32) (IntOp.addi (BitVec.ofNat 32 k.val) 512#32)
    (BitVec.ofNat 32 k.val) = _
  unfold Scalar.select
  exact if_neg hc

/-- The index column at row `k` holds the word `k`. -/
theorem idxCol_iota (k : Fin 512) (z : Fin 1) : idxCol (iotaInDim S512 32 0) (ix2 k z) = BitVec.ofNat 32 k.val := by
  unfold idxCol broadcastInDim
  refine (congrArg (wrapIdx (iotaInDim S512 32 0)) (funext fun a => ?_)).trans (wrapIdx_iota k)
  match a with
  | ⟨0, _⟩ => rfl

/-- The bounds test `0 ≤ k ≤ 511` holds in every row. -/
theorem inBounds_iota (k : Fin 512) : inBounds (iotaInDim S512 32 0) (ix1 k) = 1#1 := by
  unfold inBounds
  refine AndReduce.reduce_andi_one _ _ _ _ (fun i => ?_) (fun _ => rfl) (ix1 k)
  obtain ⟨r, z, rfl⟩ : ∃ (r : Fin 512) (z : Fin 1), i = ix2 r z := ⟨i 0, i 1, eq_ix2 i⟩
  have hr : r.val < 512 := r.isLt
  show IntOp.andi (IntOp.cmpi .sge (idxCol (iotaInDim S512 32 0) (ix2 r z)) 0#32)
    (IntOp.cmpi .sle (idxCol (iotaInDim S512 32 0) (ix2 r z)) 511#32) = 1#1
  rw [idxCol_iota]
  have h1 : IntOp.cmpi .sge (BitVec.ofNat 32 r.val) 0#32 = 1#1 :=
    IntOp.cmpi_sge.mpr (by rw [toInt_small (n := r.val) (by omega), toInt_small (n := 0) (by norm_num)]; omega)
  have h2 : IntOp.cmpi .sle (BitVec.ofNat 32 r.val) 511#32 = 1#1 :=
    IntOp.cmpi_sle.mpr (by rw [toInt_small (n := r.val) (by omega), toInt_small (n := 511) (by norm_num)]; omega)
  rw [h1, h2]
  decide

/-- LOOKING UP ROWS `0 … 511` RETURNS THE TABLE. -/
theorem lookupRows_iota (emb : FVec F S512x128 .f32) : lookupRows emb (iotaInDim S512 32 0) = emb := by
  funext j
  obtain ⟨r, c, rfl⟩ : ∃ (r : Fin 512) (c : Fin 128), j = ix2 r c := ⟨j 0, j 1, eq_ix2 j⟩
  have hr : r.val < 512 := r.isLt
  have hmask : broadcastInDim S512x128 ![0] bcast_S512_S512x128_0 (inBounds (iotaInDim S512 32 0)) (ix2 r c) = 1#1 := by
    unfold broadcastInDim
    refine (congrArg (inBounds (iotaInDim S512 32 0)) (funext fun a => ?_)).trans (inBounds_iota r)
    match a with
    | ⟨0, _⟩ => rfl
  unfold lookupRows
  rw [select_apply, hmask, select_one]
  refine (RowGather.rowGather_apply (N := 512) (C := 128) (R := 512) (by norm_num)
    gather_S512x128_S512x1_S512x128_1_0_n_n_0_1_1128 rfl rfl rfl rfl rfl rfl rfl emb (idxCol (iotaInDim S512 32 0)) r c).trans ?_
  refine congrArg emb (congrArg (fun a : Fin 512 => (ix2 a c : S512x128.Idx)) (Fin.ext ?_))
  show min (idxCol (iotaInDim S512 32 0) (ix2 r ⟨0, Nat.one_pos⟩)).toInt.toNat (512 - 1) = r.val
  rw [idxCol_iota, toInt_small (n := r.val) (by omega)]
  omega

end Cert.ReferenceIdeal.RefLookup

end
-- ==== Proof.RefValue.lean ====
/-
  The reference's result is `log1p x · emb`.

  The reference multiplies `log1p x` by the table's rows looked up at `0, 1, …, 511`. That lookup is the table itself,
  and at the extended reals the host's matrix product read at `(r, c)` is the plain sum over the contraction index of
  the operands' products, `∑ₖ log1p(x[r, k]) · emb[k, c]`: the specification's entry.
-/
import proofs.«124943_g71811853189968_cont_9to1_m_838_2_alg».proof.Proof.RefRun
import proofs.«124943_g71811853189968_cont_9to1_m_838_2_alg».proof.Proof.RefLookup
import proofs.«124943_g71811853189968_cont_9to1_m_838_2_alg».proof.Proof.Spec
import proofs.«124943_g71811853189968_cont_9to1_m_838_2_alg».proof.Proof.LibPlainDot
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- At the extended reals the reference's result is the specification of its two arguments. -/
theorem result_eq (x : FVec Ideal S16384x512 .f32) (emb : FVec Ideal S512x128 .f32) :
    RefRun.result (F := Ideal) x emb = Cert.Spec.product x emb := by
  funext j
  obtain ⟨r, c, rfl⟩ : ∃ (r : Fin 16384) (c : Fin 128), j = ix2 r c := ⟨j 0, j 1, eq_ix2 j⟩
  unfold RefRun.result
  rw [RefLookup.lookupRows_iota]
  refine (Ideal.dotGeneral_apply dot_S16384x512_S512x128_S16384x128_1_0_0_1_n_n none .single (Host.log1p x) emb (ix2 r c)).trans ?_
  exact PlainDot.plain_sum (β := EReal) (M := 16384) (K := 512) (N := 128) dot_S16384x512_S512x128_S16384x128_1_0_0_1_n_n
    rfl rfl rfl rfl rfl rfl rfl rfl (fun a b => Host.log1p (F := Ideal) x a * emb b) r c

end Cert.ReferenceIdeal.RefValue

end
-- ==== Proof.lean ====
/-
  The kernel and its reference compute the same array over the extended reals: `log1p x · emb`.

  The kernel tiles the rows of `x : [16384, 512]` into sixteen blocks of 1024 rows; for each block it takes the
  entrywise `log1p`, multiplies by the whole table `emb : [512, 128]` into a zero accumulator, and writes the product as
  the same rows of the result. The reference takes `log1p x` whole, looks up the table's rows at the indices
  `0, 1, …, 511` (an identity: no index is negative or out of bounds, so neither the wrap-around nor the fill value is
  ever taken), and forms one matrix product. Exactly, both results have the entry
  `∑ₖ log(1 + x[r, k]) · emb[k, c]` at `(r, c)` (`Cert.Spec.product`): a matrix product into zero, a host
  `dot_general`, and any tiling of the rows are the same finite sums, and only commutativity and associativity of
  addition on the extended reals are used — no distributivity, so finiteness of the inputs is never needed for the
  values.

  The kernel side reads each block off the generated blockwise value leg and covers the result with the sixteen
  blocks (`KernelValue`); the reference side writes @main as one sequence of twenty-six host operations, its two
  nested function calls unfolded (`RefRun`), shows the lookup is the identity (`RefLookup`) and reads the product at an
  index (`RefValue`). Both meet at `LibPlainDot`'s re-indexing of a plain product's contraction sum. The kernel's
  idealization rewrote nothing, so the preservation claim is trivial; the two kernel frames are the generated ones,
  and the reference's frame is its run with the result dropped.
-/
import proofs.«124943_g71811853189968_cont_9to1_m_838_2_alg».proof.Defs
import proofs.«124943_g71811853189968_cont_9to1_m_838_2_alg».proof.Proof.Gen.Kernel
import proofs.«124943_g71811853189968_cont_9to1_m_838_2_alg».proof.Proof.Gen.Kernel.Skeleton
import proofs.«124943_g71811853189968_cont_9to1_m_838_2_alg».proof.Proof.Gen.Kernel.Launch
import proofs.«124943_g71811853189968_cont_9to1_m_838_2_alg».proof.Proof.Gen.Kernel.Points
import proofs.«124943_g71811853189968_cont_9to1_m_838_2_alg».proof.Proof.Gen.Kernel.Frame
import proofs.«124943_g71811853189968_cont_9to1_m_838_2_alg».proof.Proof.Gen.KernelIdeal
import proofs.«124943_g71811853189968_cont_9to1_m_838_2_alg».proof.Proof.Gen.KernelIdeal.Skeleton
import proofs.«124943_g71811853189968_cont_9to1_m_838_2_alg».proof.Proof.Gen.KernelIdeal.Launch
import proofs.«124943_g71811853189968_cont_9to1_m_838_2_alg».proof.Proof.Gen.KernelIdeal.Points
import proofs.«124943_g71811853189968_cont_9to1_m_838_2_alg».proof.Proof.Gen.KernelIdeal.Frame
import proofs.«124943_g71811853189968_cont_9to1_m_838_2_alg».proof.Proof.Gen.KernelIdeal.Value
import proofs.«124943_g71811853189968_cont_9to1_m_838_2_alg».proof.Proof.Gen.ReferenceIdeal
import proofs.«124943_g71811853189968_cont_9to1_m_838_2_alg».proof.Proof.Gen.Pre_finite_inputs
import proofs.«124943_g71811853189968_cont_9to1_m_838_2_alg».proof.Proof.KernelValue
import proofs.«124943_g71811853189968_cont_9to1_m_838_2_alg».proof.Proof.RefRun
import proofs.«124943_g71811853189968_cont_9to1_m_838_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Over the extended reals the kernel's result array and the reference's, from memories agreeing on `x` and `emb`,
    both end at `log1p x · emb`. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
